-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S1024 : Shape := ⟨1, ![1024]⟩
abbrev S1000x1024 : Shape := ⟨2, ![1000, 1024]⟩
abbrev S1000 : Shape := ⟨1, ![1000]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1000x1024 : S_.BroadcastsInDim S1000x1024 (![] : Fin 0 → Fin S1000x1024.rank)
  reducesTo_S1000x1024_S_d0_1 : S1000x1024.ReducesTo [0, 1] S_
  bcast_S_S1000 : S_.BroadcastsInDim S1000 (![] : Fin 0 → Fin S1000.rank)
  reducesTo_S1000_S_d0 : S1000.ReducesTo [0] S_

variable [Facts]

def fn_part1 {F : FTy → Type} [FloatOps F] (main_arg4 : FVec F S1000 .f32) (main_v13 : IVec S_ 1) (main_v16 : IVec S1000x1024 1) : IVec S_ 1 :=
  let main_c_5 : IVec S_ 1 := constantI S_ 1 1#1
  let main_v17 : IVec S_ 1 := (fun x v => Host.reduce IntOp.andi x v reducesTo_S1000x1024_S_d0_1 h_S_) main_v16 main_c_5
  let main_v18 : IVec S_ 1 := andi main_v13 main_v17
  let main_v19 : FVec F S1000 .f32 := Host.absf main_arg4
  let main_cst_6 : FVec F S_ .f32 := constant S_ .f32 0x7F800000#32
  let main_v20 : FVec F S1000 .f32 := broadcastInDim S1000 ![] bcast_S_S1000 main_cst_6
  let main_v21 : IVec S1000 1 := cmpf .olt main_v19 main_v20
  let main_c_7 : IVec S_ 1 := constantI S_ 1 1#1
  let main_v22 : IVec S_ 1 := (fun x v => Host.reduce IntOp.andi x v reducesTo_S1000_S_d0 h_S_) main_v21 main_c_7
  let main_v23 : IVec S_ 1 := andi main_v18 main_v22
  main_v23

def fn {F : FTy → Type} [FloatOps F] (main_arg0 : FVec F S2x2048x1024 .f32) (main_arg1 : FVec F S1024x1024 .f32) (main_arg2 : FVec F S1024 .f32) (main_arg3 : FVec F S1000x1024 .f32) (main_arg4 : FVec F S1000 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1000x1024 .f32 := Host.absf main_arg3
  let main_cst_4 : FVec F S_ .f32 := constant S_ .f32 0x7F800000#32
  let main_v15 : FVec F S1000x1024 .f32 := broadcastInDim S1000x1024 ![] bcast_S_S1000x1024 main_cst_4
  let main_v16 : IVec S1000x1024 1 := cmpf .olt main_v14 main_v15
  fn_part1 (F := F) main_arg4 main_v13 main_v16
-- ==== Kernel.lean ====
abbrev S2x2048x1024 : Shape := ⟨3, ![2, 2048, 1024]⟩
abbrev S1024x1024 : Shape := ⟨2, ![1024, 1024]⟩
abbrev S1024 : Shape := ⟨1, ![1024]⟩
abbrev S1000x1024 : Shape := ⟨2, ![1000, 1024]⟩
abbrev S1000 : Shape := ⟨1, ![1000]⟩
abbrev S4096x1024 : Shape := ⟨2, ![4096, 1024]⟩
abbrev S1x1024 : Shape := ⟨2, ![1, 1024]⟩
abbrev S512x1024 : Shape := ⟨2, ![512, 1024]⟩
abbrev S2048x128 : Shape := ⟨2, ![2048, 128]⟩
abbrev S128x128 : Shape := ⟨2, ![128, 128]⟩
abbrev S1024x1000 : Shape := ⟨2, ![1024, 1000]⟩
abbrev S1x1000 : Shape := ⟨2, ![1, 1000]⟩
abbrev S4096x1000 : Shape := ⟨2, ![4096, 1000]⟩
abbrev S512x1000 : Shape := ⟨2, ![512, 1000]⟩
abbrev S2x2048x1000 : Shape := ⟨3, ![2, 2048, 1000]⟩

abbrev nBuf : Space → Nat
  | .hbm => 17
  | .vmem => 16
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S1000x1024, .f32⟩
  | .hbm, ⟨4, _⟩ => ⟨S1000, .f32⟩
  | .hbm, ⟨5, _⟩ => ⟨S4096x1024, .f32⟩
  | .hbm, ⟨6, _⟩ => ⟨S4096x1024, .bf16⟩
  | .hbm, ⟨7, _⟩ => ⟨S1024x1024, .f32⟩
  | .hbm, ⟨8, _⟩ => ⟨S1024x1024, .bf16⟩
  | .hbm, ⟨9, _⟩ => ⟨S1x1024, .f32⟩
  | .hbm, ⟨10, _⟩ => ⟨S4096x1024, .bf16⟩
  | .hbm, ⟨11, _⟩ => ⟨S4096x1024, .bf16⟩
  | .hbm, ⟨12, _⟩ => ⟨S1024x1000, .f32⟩
  | .hbm, ⟨13, _⟩ => ⟨S1024x1000, .bf16⟩
  | .hbm, ⟨14, _⟩ => ⟨S1x1000, .f32⟩
  | .hbm, ⟨15, _⟩ => ⟨S4096x1000, .f32⟩
  | .hbm, ⟨16, _⟩ => ⟨S2x2048x1000, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S512x1024, .bf16⟩
  | .local _ .vmem, ⟨11, _⟩ => ⟨S512x1024, .bf16⟩
  | .local _ .vmem, ⟨12, _⟩ => ⟨S1024x1000, .bf16⟩
  | .local _ .vmem, ⟨13, _⟩ => ⟨S1x1000, .f32⟩
  | .local _ .vmem, ⟨14, _⟩ => ⟨S512x1000, .f32⟩
  | .local _ .vmem, ⟨15, _⟩ => ⟨S512x1000, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2048x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1000 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1000 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1000 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S2x2048x1024_S4096x1024 : S2x2048x1024.ShapeCasts S4096x1024
  bitsLt_bf16_f32 : FTy.bits .bf16 < FTy.bits .f32
  transposes_S1024x1024_S1024x1024_1_0 : S1024x1024.Transposes [1, 0] S1024x1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  iota_S128x128_d0_w32 : S128x128.Iotas .tc 32 [0]
  natLt_1_32 : 1 < 32
  iota_S128x128_d1_w32 : S128x128.Iotas .tc 32 [1]
  packedbf16_S2048x128_S2048x128_0_0 : (Rect.unit (s := S2048x128) ![0, 0] S2048x128.size inb_S2048x128_S2048x128_0_0).PackedRows (EltTy.packing .bf16)
  transposes_S1000x1024_S1024x1000_1_0 : S1000x1024.Transposes [1, 0] S1024x1000
  shapeCasts_S1000_S1x1000 : S1000.ShapeCasts S1x1000
  inb_S1024x1000_S1024x1000_0_0 : ∀ a, (![0, 0] : Fin 2 → Nat) a + S1024x1000.size a ≤ S1024x1000.size a
  h_S1024x1000 : 0 < S1024x1000.numel
  shapeCasts_S1024x1000_S1024x1000 : S1024x1000.ShapeCasts S1024x1000
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S512x1000 : S1x1000.Broadcasts S512x1000
  inb_S512x1000_S512x1000_0_0 : ∀ a, (![0, 0] : Fin 2 → Nat) a + S512x1000.size a ≤ S512x1000.size a
  h_S512x1000 : 0 < S512x1000.numel
  shapeCasts_S4096x1000_S2x2048x1000 : S4096x1000.ShapeCasts S2x2048x1000
  dot_S512x1024_S1024x1024_S512x1024_1_0_0_1_n_n_wf : DotDims.WF S512x1024 S1024x1024 S512x1024 [1] [0] [0] [1] [] []
  dot_S2048x128_S2048x128_S128x128_0_0_1_1_n_n_wf : DotDims.WF S2048x128 S2048x128 S128x128 [0] [0] [1] [1] [] []
  dot_S2048x128_S128x128_S2048x128_1_0_0_1_n_n_wf : DotDims.WF S2048x128 S128x128 S2048x128 [1] [0] [0] [1] [] []
  dot_S512x1024_S1024x1000_S512x1000_1_0_0_1_n_n_wf : DotDims.WF S512x1024 S1024x1000 S512x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .bf16 = 32 ∨ (Rect.block (s := S4096x1024) S512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S4096x1024.size a
  hwx1_0 : ∀ i : grid1.Coords, EltTy.bits .bf16 = 32 ∨ (Rect.block (s := S4096x1024) S2048x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S4096x1024.size a
  hwx1_1 : ∀ i : grid1.Coords, EltTy.bits .bf16 = 32 ∨ (Rect.block (s := S4096x1024) S2048x128.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1000.size a ≤ S1024x1000.size a
  hwx2_1 : ∀ i : grid2.Coords, EltTy.bits .bf16 = 32 ∨ (Rect.block (s := S1024x1000) S1024x1000.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1000.size a ≤ S1x1000.size a
  hwx2_2 : ∀ i : grid2.Coords, EltTy.bits .f32 = 32 ∨ (Rect.block (s := S1x1000) S1x1000.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1000.size a ≤ S4096x1000.size a
  hwx2_3 : ∀ i : grid2.Coords, EltTy.bits .f32 = 32 ∨ (Rect.block (s := S4096x1000) S512x1000.size (cc2_transform_3 i) (hinb2_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S2048x128_S2048x128_S128x128_0_0_1_1_n_n : DotDims S2048x128 S2048x128 S128x128 where
  lhsContracting := [0]
  rhsContracting := [0]
  lhsNonContracting := [1]
  rhsNonContracting := [1]
  lhsBatch := []
  rhsBatch := []
  wf := dot_S2048x128_S2048x128_S128x128_0_0_1_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S512x1024_S1024x1000_S512x1000_1_0_0_1_n_n : DotDims S512x1024 S1024x1000 S512x1000 where
  lhsContracting := [1]
  rhsContracting := [0]
  lhsNonContracting := [0]
  rhsNonContracting := [1]
  lhsBatch := []
  rhsBatch := []
  wf := dot_S512x1024_S1024x1000_S512x1000_1_0_0_1_n_n_wf

abbrev win0_0 : Pipeline.Window sig grid0 :=
  Pipeline.Window.ofSpec (Memref.whole main_v1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S2048x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v6) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S1024x1000.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1x1000.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v10) S512x1000.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S1000x1024 : Shape := ⟨2, ![1000, 1024]⟩
abbrev S1000 : Shape := ⟨1, ![1000]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x2048x1000 : Shape := ⟨3, ![2, 2048, 1000]⟩
abbrev S1x1x1000 : Shape := ⟨3, ![1, 1, 1000]⟩

abbrev nBuf : Space → Nat
  | .hbm => 22
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S1000x1024, .f32⟩
  | .hbm, ⟨4, _⟩ => ⟨S1000, .f32⟩
  | .hbm, ⟨5, _⟩ => ⟨S2x2048x1024, .f32⟩
  | .hbm, ⟨6, _⟩ => ⟨S1x1x1024, .f32⟩
  | .hbm, ⟨7, _⟩ => ⟨S2x2048x1024, .f32⟩
  | .hbm, ⟨8, _⟩ => ⟨S2x2048x1024, .f32⟩
  | .hbm, ⟨9, _⟩ => ⟨S2x2048x16x64, .f32⟩
  | .hbm, ⟨10, _⟩ => ⟨S2x16x2048x64, .f32⟩
  | .hbm, ⟨11, _⟩ => ⟨S2x16x2048x2048, .f32⟩
  | .hbm, ⟨12, _⟩ => ⟨S_, .f32⟩
  | .hbm, ⟨13, _⟩ => ⟨S2x16x2048x2048, .f32⟩
  | .hbm, ⟨14, _⟩ => ⟨S2x16x2048x2048, .f32⟩
  | .hbm, ⟨15, _⟩ => ⟨S2x16x2048x64, .f32⟩
  | .hbm, ⟨16, _⟩ => ⟨S2x2048x16x64, .f32⟩
  | .hbm, ⟨17, _⟩ => ⟨S2x2048x1024, .f32⟩
  | .hbm, ⟨18, _⟩ => ⟨S2x2048x1000, .f32⟩
  | .hbm, ⟨19, _⟩ => ⟨S1x1x1000, .f32⟩
  | .hbm, ⟨20, _⟩ => ⟨S2x2048x1000, .f32⟩
  | .hbm, ⟨21, _⟩ => ⟨S2x2048x1000, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1000_S1x1x1000_2 : S1000.BroadcastsInDim S1x1x1000 (![2] : Fin 1 → Fin S1x1x1000.rank)
  bcast_S1x1x1000_S2x2048x1000_0_1_2 : S1x1x1000.BroadcastsInDim S2x2048x1000 (![0, 1, 2] : Fin 3 → Fin S2x2048x1000.rank)
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1000x1024_S2x2048x1000_2_1_01_0_n_n_wf : DotDims.WF S2x2048x1024 S1000x1024 S2x2048x1000 [2] [1] [0, 1] [0] [] []

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1000x1024_S2x2048x1000_2_1_01_0_n_n : DotDims S2x2048x1024 S1000x1024 S2x2048x1000 where
  lhsContracting := [2]
  rhsContracting := [1]
  lhsNonContracting := [0, 1]
  rhsNonContracting := [0]
  lhsBatch := []
  rhsBatch := []
  wf := dot_S2x2048x1024_S1000x1024_S2x2048x1000_2_1_01_0_n_n_wf

class Facts : Prop extends Facts₀ where

variable [Facts]
-- ==== Proof.RunResult.lean ====
/-
  The kernel program's run with its RESULT named. Every weakly fair execution of the program terminates without a
  fault; the five argument arrays end as launched; and the result array ends holding what the chain of the program's
  segments leaves in it: the contents after the last stretch of host operations (`Gen.W6`), which is a fold — host
  operations applied in order, and each call's output array at what its blocks' write-backs leave — from the launch
  memory. The segments, their thread states and their chaining are the generated ones; only the last step reads one
  more buffer of the final state than the frame claim needs.
-/
import proofs.«122233_j8297876815995_2_alg».proof.Proof.Gen.KernelIdeal.Frame

set_option maxRecDepth 16384

noncomputable section

namespace Cert.KernelIdeal.RunResult

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array at the last boundary's contents, the arguments as launched. -/
theorem run : θ_run defs (onTc (τ := τ) (main (F := F))) ⟨m, fun _ => 0, ρ⟩ (fun r => ∀ c : Dev nD,
      r.2.mem ((c.tc : Thread nD τ).loc main_v11) = W6 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v11 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.KernelIdeal.RunResult

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.LibMatmulTN.lean ====
/-
  A matrix product that contracts the FIRST axis of both operands, read at one entry on the extended reals: for a
  K × M left operand and a K × N right operand accumulated into zeros, entry (i, j) is Σ_k lhs (k, i) · rhs (k, j) —
  the transpose of the left operand times the right operand, with no transpose ever formed. No rounding and no
  order of accumulation is left in it.
-/
import Idealize.ShloMosaic.PureOps.Ideal.Laws
import Idealize.ShloMosaic.Lib.ValueIdx

noncomputable section

namespace Cert.MatmulTN

open Idealize.ShloMosaic Idealize.ShloMosaic.ValueIdx

/-- The dimension numbers `<[0], [0], [1], [1], [0, 1, 1, 1], [], []>` (the fifth group is the order of the result's
    axes, which the record does not carry): `K×M` by `K×N`, both contracted on their first axis. -/
def dims (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- Entry (i, j) of the product over the first axes of `lhs` (K × M) and `rhs` (K × N) accumulated into zeros. -/
theorem matmul_zero_apply (K M N : Nat) {φ₁ φ₂ : FTy} (prec : Option ContractPrecision)
    (lhs : FVec Ideal ⟨2, ![K, M]⟩ φ₁) (rhs : FVec Ideal ⟨2, ![K, N]⟩ φ₂) (i : Fin M) (j : Fin N) :
    FloatOps.matmul (dims K M N) prec lhs rhs (constant ⟨2, ![M, N]⟩ .f32 0x00000000#32) (ix2 i j)
      = ∑ k : Fin K, lhs (ix2 k i) * rhs (ix2 k j) := by
  rw [Ideal.matmul_constant_zero_apply, ← Equiv.sum_comp (contrEquiv1 (dims K M N) K rfl rfl).symm]
  refine Finset.sum_congr rfl fun k _ => ?_
  have hk := contrEquiv1_symm_val (dims K M N) K rfl rfl k
  have el : (dims K M N).lhsIdx (ix2 i j) ((contrEquiv1 (dims K M N) K rfl rfl).symm k) = ix2 k i :=
    funext fun a => Fin.ext (by
      match a with
      | ⟨0, _⟩ => exact ((dims K M N).lhsIdx_val_of_single rfl _ _).trans hk
      | ⟨1, _⟩ => rfl)
  have er : (dims K M N).rhsIdx (ix2 i j) ((contrEquiv1 (dims K M N) K rfl rfl).symm k) = ix2 k j :=
    funext fun a => Fin.ext (by
      match a with
      | ⟨0, _⟩ => exact ((dims K M N).rhsIdx_val_of_single rfl _ _).trans hk
      | ⟨1, _⟩ => rfl)
  rw [el, er]

end Cert.MatmulTN

end
-- ==== Proof.LibRealEntries.lean ====
/-
  Entries that are real numbers, on the extended reals.

  An extended real is REAL when it is neither +∞ nor −∞. Sums, products and maxima of real entries are real, a finite
  sum of real entries is real, and so is the greatest entry of a nonempty finite row of real entries (the fold of `max`
  from −∞). The one law of subtraction used with it: taking away `m + L` is taking away `m` and then `L`, as soon as `m`
  is real, whatever `L` and the minuend are — at an infinite `m` the two sides differ.
-/
import Idealize.ShloMosaic.PureOps.Ideal
import Mathlib.Data.Finset.Fold

noncomputable section

open scoped BigOperators

namespace Cert.LibRealEntries

/-- An extended real that is a real number. -/
def IsReal (x : EReal) : Prop := ∃ r : ℝ, x = (r : EReal)

theorem isReal_coe (r : ℝ) : IsReal (r : EReal) := ⟨r, rfl⟩

theorem isReal_zero : IsReal (0 : EReal) := ⟨0, rfl⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

theorem isReal_of_ne {x : EReal} (h1 : x ≠ ⊥) (h2 : x ≠ ⊤) : IsReal x := by
  induction x using EReal.rec with
  | bot => exact absurd rfl h1
  | coe r => exact ⟨r, rfl⟩
  | top => exact absurd rfl h2

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

theorem IsReal.ite {p : Prop} [Decidable p] {x y : EReal} (hx : IsReal x) (hy : IsReal y) : IsReal (if p then x else y) := by
  split <;> assumption

/-- A finite sum of real entries is real. -/
theorem isReal_sum {ι : Type} (s : Finset ι) (f : ι → EReal) (h : ∀ i ∈ s, IsReal (f i)) : IsReal (∑ i ∈ s, f i) :=
  Finset.sum_induction f IsReal (fun _ _ ha hb => ha.add hb) isReal_zero h

/-- The greatest entry of a nonempty finite row of real entries, folded from −∞, is real. -/
theorem isReal_fold_max {ι : Type} (s : Finset ι) (f : ι → EReal) (hne : s.Nonempty) (h : ∀ i ∈ s, IsReal (f i)) :
    IsReal (s.fold max (⊥ : EReal) f) := by
  refine isReal_of_ne ?_ ?_
  · obtain ⟨i, hi⟩ := hne
    intro hb
    have hle : f i ≤ s.fold max (⊥ : EReal) f := (Finset.le_fold_max _).mpr (Or.inr ⟨i, hi, le_rfl⟩)
    rw [hb] at hle
    exact (h i hi).ne_bot (le_bot_iff.mp hle)
  · have hlt : s.fold max (⊥ : EReal) f < ⊤ :=
      (Finset.fold_max_lt _).mpr ⟨bot_lt_top, fun i hi => lt_top_iff_ne_top.mpr (h i hi).ne_top⟩
    exact hlt.ne

/-- Taking away `m + L` is taking away `m`, then `L`, when `m` is real. -/
theorem sub_add_of_isReal {m : EReal} (hm : IsReal m) (x L : EReal) : x - (m + L) = x - m - L := by
  obtain ⟨r, rfl⟩ := hm
  rw [sub_eq_add_neg, EReal.neg_add (Or.inl (EReal.coe_ne_bot r)) (Or.inl (EReal.coe_ne_top r)),
    sub_eq_add_neg (-(r : EReal)) L, ← add_assoc, ← sub_eq_add_neg, ← sub_eq_add_neg]

end Cert.LibRealEntries

end
-- ==== Proof.LibGramFirst.lean ====
/-
  Two laws of attention without softmax, on the extended reals, over any sizes.

  Scores first or Gram matrix first. For a query row a (D features), S key rows B(k, ·), a value column v(k) and a
  scale c, ALL REAL,

      Σ_k ((Σ_e a(e)·B(k,e))·c)·v(k)  =  Σ_e a(e)·((Σ_k B(k,e)·v(k))·c):

  both are c·Σ_k Σ_e a(e)·B(k,e)·v(k). The left forms the S scores and then weighs the values; the right forms the
  column e of the D × D Gram matrix BᵀV first. On the extended reals the exchange of the two sums and the moving of c
  need every factor real (at an infinite entry the two sides can differ), so the law is stated for entries that ARE
  reals (`scores_eq_gram`) and for extended-real entries known to be real (`scores_eq_gram_of_real`).

  Heads packed side by side. A sum over the n·m columns of n heads of m columns each, whose terms outside head q are
  zero, is the sum over head q's m columns (`sum_block`): what a block-diagonal mask on a packed Gram matrix leaves.
-/
import Idealize.ShloMosaic.PureOps.Ideal
import Mathlib.Algebra.BigOperators.Fin

noncomputable section

open scoped BigOperators

namespace Cert.LibGramFirst

/-- A finite sum of real numbers, summed on the extended reals, is their real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Scores first equals Gram matrix first, for real entries. -/
theorem scores_eq_gram {S D : Nat} (a : Fin D → ℝ) (B : Fin S → Fin D → ℝ) (v : Fin S → ℝ) (c : ℝ) :
    ∑ k : Fin S, ((∑ e : Fin D, (a e : EReal) * (B k e : EReal)) * (c : EReal)) * (v k : EReal)
      = ∑ e : Fin D, (a e : EReal) * ((∑ k : Fin S, (B k e : EReal) * (v k : EReal)) * (c : EReal)) := by
  simp only [← EReal.coe_mul, coe_sum]
  refine congrArg _ ?_
  simp only [Finset.sum_mul, Finset.mul_sum]
  rw [Finset.sum_comm]
  exact Finset.sum_congr rfl fun e _ => Finset.sum_congr rfl fun k _ => by ring

/-- The same for extended-real entries that are real numbers. -/
theorem scores_eq_gram_of_real {S D : Nat} (a : Fin D → EReal) (B : Fin S → Fin D → EReal) (v : Fin S → EReal) (c : EReal)
    (ha : ∀ e, ∃ r : ℝ, a e = r) (hB : ∀ k e, ∃ r : ℝ, B k e = r) (hv : ∀ k, ∃ r : ℝ, v k = r) (hc : ∃ r : ℝ, c = r) :
    ∑ k : Fin S, ((∑ e : Fin D, a e * B k e) * c) * v k = ∑ e : Fin D, a e * ((∑ k : Fin S, B k e * v k) * c) := by
  choose a' ha' using ha
  choose B' hB' using hB
  choose v' hv' using hv
  obtain ⟨c', rfl⟩ := hc
  simp only [ha', hB', hv']
  exact scores_eq_gram a' B' v' c'

/-- A sum over n·m columns whose terms outside head q are zero is the sum over head q's m columns. -/
theorem sum_block {n m : Nat} (f : Fin (n * m) → EReal) (q : Fin n) :
    ∑ i : Fin (n * m), (if i.val / m = q.val then f i else 0)
      = ∑ e : Fin m, f ⟨q.val * m + e.val, by
          have h1 := q.isLt; have h2 := e.isLt
          calc q.val * m + e.val < q.val * m + m := by omega
            _ = (q.val + 1) * m := by ring
            _ ≤ n * m := Nat.mul_le_mul_right m h1⟩ := by
  have hm : ∀ e : Fin m, 0 < m := fun e => Nat.lt_of_le_of_lt (Nat.zero_le _) e.isLt
  rw [← Equiv.sum_comp (finProdFinEquiv : Fin n × Fin m ≃ Fin (n * m)), Fintype.sum_prod_type, Finset.sum_eq_single q]
  · refine Finset.sum_congr rfl fun e _ => ?_
    have hv : (finProdFinEquiv (q, e) : Fin (n * m)).val = e.val + m * q.val := rfl
    have h1 : (finProdFinEquiv (q, e) : Fin (n * m)).val / m = q.val := by
      rw [hv, Nat.add_mul_div_left _ _ (hm e), Nat.div_eq_of_lt e.isLt, Nat.zero_add]
    rw [if_pos h1]
    exact congrArg f (Fin.ext (by rw [hv]; show e.val + m * q.val = q.val * m + e.val; rw [Nat.mul_comm, Nat.add_comm]))
  · intro q' _ hq'
    refine Finset.sum_eq_zero fun e _ => ?_
    have hv : (finProdFinEquiv (q', e) : Fin (n * m)).val = e.val + m * q'.val := rfl
    have h1 : ¬ (finProdFinEquiv (q', e) : Fin (n * m)).val / m = q.val := by
      rw [hv, Nat.add_mul_div_left _ _ (hm e), Nat.div_eq_of_lt e.isLt, Nat.zero_add]
      exact fun hh => hq' (Fin.ext hh)
    rw [if_neg h1]
  · intro hq; exact absurd (Finset.mem_univ q) hq

end Cert.LibGramFirst

end
-- ==== Proof.Spec.lean ====
/-
  The mathematics of the layer, on the extended reals, with no program in sight.

  A dense layer sends row r of X to  Σ_k X(r,k)·W(g,k) + b(g).  The attention without softmax works head by head: with
  rows r = b·2048 + s (batch entry b, position s) and columns g = h·64 + d (head h, feature d), and P the projected
  input, the value at (b, s, h, d) is

      Σ_e P(b,s;h,e) · ((Σ_k P(b,k;h,e) · P(b,k;h,d)) · c)          (the features' 64×64 Gram matrix first),

  which for REAL entries is the same number as

      Σ_k ((Σ_e P(b,s;h,e) · P(b,k;h,e)) · c) · P(b,k;h,d)          (the positions' 2048×2048 scores first):

  both are c · Σ_k Σ_e of the same triple products, and exchanging the two sums and moving c across them is sound
  exactly because every factor is a real number — at an infinite entry the two sides may differ. A sum over the 128
  columns of a PAIR of heads, with the terms of the other head replaced by zero, is the sum over the 64 columns of the
  one head (`sum_head`).
-/
import Idealize.ShloMosaic.PureOps.Ideal
import Idealize.ShloMosaic.Lib.ValueIdx
import Mathlib.Algebra.BigOperators.Fin
import proofs.«122233_j8297876815995_2_alg».proof.Proof.LibRealEntries
import proofs.«122233_j8297876815995_2_alg».proof.Proof.LibGramFirst

noncomputable section

open scoped BigOperators

namespace Cert.LinAttn

open Idealize.ShloMosaic Idealize.ShloMosaic.ValueIdx Cert.LibRealEntries

/-- A rank-2 array as a function of its row and its column. -/
def mat {M N : Nat} (a : (⟨2, ![M, N]⟩ : Shape).Idx → EReal) (r : Fin M) (k : Fin N) : EReal := a (ix2 r k)

/-- The scale both programs spell: the f32 word of 1/32 = 1/sqrt 1024. -/
def scale : EReal := Ideal.ofBits .f32 0x3D000000#32

theorem scale_eq : scale = ((1 / 32 : ℝ) : EReal) := by
  unfold scale
  simp [Ideal.ofBits, Ideal.ieee, -EReal.coe_mul]; norm_num

theorem scale_real : IsReal scale := ⟨_, scale_eq⟩

/-- A dense layer with the weights stored output-major: row r, output g. -/
def dense {M K N : Nat} (X : Fin M → Fin K → EReal) (W : Fin N → Fin K → EReal) (b : Fin N → EReal)
    (r : Fin M) (g : Fin N) : EReal :=
  ∑ k : Fin K, X r k * W g k + b g

theorem dense_real {M K N : Nat} {X : Fin M → Fin K → EReal} {W : Fin N → Fin K → EReal} {b : Fin N → EReal}
    (hX : ∀ r k, IsReal (X r k)) (hW : ∀ g k, IsReal (W g k)) (hb : ∀ g, IsReal (b g)) (r : Fin M) (g : Fin N) :
    IsReal (dense X W b r g) :=
  (isReal_sum _ _ fun k _ => (hX r k).mul (hW g k)).add (hb g)

/-- Row b·2048 + s of the 4096 rows: batch entry b, position s. -/
def row (b : Fin 2) (s : Fin 2048) : Fin 4096 := ⟨b.val * 2048 + s.val, by have := b.isLt; have := s.isLt; omega⟩
/-- Column h·64 + d of the 1024 columns: head h, feature d. -/
def col (h : Fin 16) (d : Fin 64) : Fin 1024 := ⟨h.val * 64 + d.val, by have := h.isLt; have := d.isLt; omega⟩

/-- The attention value with the features' Gram matrix formed first. -/
def attn (P : Fin 4096 → Fin 1024 → EReal) (b : Fin 2) (s : Fin 2048) (h : Fin 16) (d : Fin 64) : EReal :=
  ∑ e : Fin 64, P (row b s) (col h e) * ((∑ k : Fin 2048, P (row b k) (col h e) * P (row b k) (col h d)) * scale)

/-- The attention value with the positions' scores formed first. -/
def attnRef (P : Fin 4096 → Fin 1024 → EReal) (b : Fin 2) (s : Fin 2048) (h : Fin 16) (d : Fin 64) : EReal :=
  ∑ k : Fin 2048, ((∑ e : Fin 64, P (row b s) (col h e) * P (row b k) (col h e)) * scale) * P (row b k) (col h d)

/-- For real entries the two orders of forming the attention value agree: the general law at 2048 positions and 64
    features, the query row P(b,s;h,·), the keys P(b,k;h,·), the value column P(b,k;h,d) and the scale 1/32. -/
theorem attnRef_eq_attn (P : Fin 4096 → Fin 1024 → EReal) (hP : ∀ r g, IsReal (P r g))
    (b : Fin 2) (s : Fin 2048) (h : Fin 16) (d : Fin 64) : attnRef P b s h d = attn P b s h d :=
  Cert.LibGramFirst.scores_eq_gram_of_real (fun e => P (row b s) (col h e)) (fun k e => P (row b k) (col h e))
    (fun k => P (row b k) (col h d)) scale (fun e => hP _ _) (fun k e => hP _ _) (fun k => hP _ _) scale_real

/-- A sum over the 128 columns of two heads whose terms outside head q are zero is the sum over head q's 64. -/
theorem sum_head (f : Fin 128 → EReal) (q : Fin 2) :
    ∑ i : Fin 128, (if i.val / 64 = q.val then f i else 0)
      = ∑ e : Fin 64, f ⟨q.val * 64 + e.val, by have := q.isLt; have := e.isLt; omega⟩ :=
  Cert.LibGramFirst.sum_block (n := 2) (m := 64) f q

/-- What one block of two heads computes: for x the block's 2048 × 128 entries, at position s and column j, the sum
    over the block's columns i of x(s,i) times the masked and scaled Gram entry (i, j). -/
def attnBlk (x : Fin 2048 → Fin 128 → EReal) (s : Fin 2048) (j : Fin 128) : EReal :=
  ∑ i : Fin 128, x s i * ((if i.val / 64 = j.val / 64 then ∑ k : Fin 2048, x k i * x k j else 0) * scale)

/-- The block's value only sees the head its column lies in: no finiteness is needed, a zero factor kills a term. -/
theorem attnBlk_eq (x : Fin 2048 → Fin 128 → EReal) (s : Fin 2048) (j : Fin 128) :
    attnBlk x s j = ∑ e : Fin 64, x s ⟨j.val / 64 * 64 + e.val, by have := j.isLt; have := e.isLt; omega⟩
      * ((∑ k : Fin 2048, x k ⟨j.val / 64 * 64 + e.val, by have := j.isLt; have := e.isLt; omega⟩ * x k j) * scale) := by
  unfold attnBlk
  have hq : j.val / 64 < 2 := by have := j.isLt; omega
  rw [← sum_head (fun i => x s i * ((∑ k : Fin 2048, x k i * x k j) * scale)) ⟨j.val / 64, hq⟩]
  refine Finset.sum_congr rfl fun i _ => ?_
  by_cases hc : i.val / 64 = j.val / 64
  · rw [if_pos hc, if_pos (show i.val / 64 = (⟨j.val / 64, hq⟩ : Fin 2).val from hc)]
  · rw [if_neg hc, if_neg (show ¬ i.val / 64 = (⟨j.val / 64, hq⟩ : Fin 2).val from hc), zero_mul, mul_zero]

end Cert.LinAttn

end
-- ==== Proof.Payloads.lean ====
/-
  What each kernel body stores, read at one entry of its block, on the extended reals.

  The two projection bodies store, at (p, q) of a block of 512 rows, Σ_k x(p,k)·w(k,q) + bias(0,q): a product into a
  zero accumulator plus one row broadcast down the block; a change of float format is the identity here.
  The attention body works on a block x of 2048 positions by the 128 columns of a PAIR of heads. It forms the 128×128
  Gram matrix Σ_k x(k,i)·x(k,j), keeps entry (i, j) only where i and j lie in the same head — the vector unit spells
  i div 64 = j div 64 by a signed division with a correction for negative operands, which for the lane and sublane
  numbers 0 … 127 is the plain quotient (checked over all 128 values) —, scales by 1/32, and multiplies the block by
  it: `attnBlk`.
-/
import proofs.«122233_j8297876815995_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import proofs.«122233_j8297876815995_2_alg».proof.Proof.LibPlainMatmul
import proofs.«122233_j8297876815995_2_alg».proof.Proof.LibMatmulTN
import proofs.«122233_j8297876815995_2_alg».proof.Proof.Spec

noncomputable section

open scoped BigOperators

namespace Cert.KernelIdeal.Pay

open Cert.KernelIdeal Cert.KernelIdeal.Gen Idealize.ShloMosaic Idealize.ShloMosaic.ValueIdx Cert.LinAttn

/-! ## The two projections -/

/-- The input projection's stored block at (p, q). -/
theorem pay0_apply (x0 : FVec Ideal S512x1024 .bf16) (x1 : FVec Ideal S1024x1024 .bf16) (x2 : FVec Ideal S1x1024 .f32)
    (p : Fin 512) (q : Fin 1024) :
    k0_pay1 (F := Ideal) x0 x1 x2 (ix2 p q) = ∑ k : Fin 1024, x0 (ix2 p k) * x1 (ix2 k q) + x2 (ix2 (0 : Fin 1) q) := by
  unfold k0_pay1
  refine (truncf_apply (φ := .f32) (ψ := .bf16) _ _ _).trans ?_
  refine (addf_apply _ _ _).trans ?_
  rw [shapeCast_self, shapeCast_self, shapeCast_self, broadcastTo_1b_ab_apply]
  exact congrArg (· + x2 (ix2 (0 : Fin 1) q)) (Cert.PlainMatmul.matmul_zero_apply 512 1024 1024 none x0 x1 p q)

/-- The output projection's stored block at (p, q). -/
theorem pay2_apply (x0 : FVec Ideal S512x1024 .bf16) (x1 : FVec Ideal S1024x1000 .bf16) (x2 : FVec Ideal S1x1000 .f32)
    (p : Fin 512) (q : Fin 1000) :
    k2_pay1 (F := Ideal) x0 x1 x2 (ix2 p q) = ∑ k : Fin 1024, x0 (ix2 p k) * x1 (ix2 k q) + x2 (ix2 (0 : Fin 1) q) := by
  unfold k2_pay1
  refine (addf_apply _ _ _).trans ?_
  rw [shapeCast_self, shapeCast_self, shapeCast_self, broadcastTo_1b_ab_apply]
  exact congrArg (· + x2 (ix2 (0 : Fin 1) q)) (Cert.PlainMatmul.matmul_zero_apply 512 1024 1000 none x0 x1 p q)

/-! ## The attention body -/

/-- The sublane's head: for 0 ≤ i < 128 the corrected signed quotient by 64 is i div 64. -/
theorem rowHead_apply (i j : Fin 128) : k1_pay4 (ix2 i j) = BitVec.ofNat 32 (i.val / 64) := by
  have hw : iota .tc S128x128 32 [0] iota_S128x128_d0_w32 (ix2 i j) = BitVec.ofNat 32 i.val :=
    iota_single_apply .tc S128x128 32 0 iota_S128x128_d0_w32 (ix2 i j)
  unfold k1_pay4
  dsimp only [select, andi, cmpi, subi, extui, divsi, remsi, broadcast]
  rw [hw]
  clear hw
  revert i
  decide +kernel

/-- The lane's head word, as the body spells the floor division of the lane number by 64. -/
def colHead : IVec S128x128 32 :=
  select
    (andi
      (cmpi .ne k1_pay6
        (broadcast S128x128
          (Scalar.subi (Scalar.extui (Scalar.cmpi .sgt 64#32 0#32)) (Scalar.extui (Scalar.cmpi .slt 64#32 0#32)))))
      (cmpi .ne (remsi (iota .tc S128x128 32 [1] iota_S128x128_d1_w32) (broadcast S128x128 64#32))
        (broadcast S128x128 0#32)))
    (subi k1_pay5 (broadcast S128x128 1#32)) k1_pay5

/-- The lane's head: for 0 ≤ j < 128 it is j div 64. -/
theorem colHead_apply (i j : Fin 128) : colHead (ix2 i j) = BitVec.ofNat 32 (j.val / 64) := by
  have hw : iota .tc S128x128 32 [1] iota_S128x128_d1_w32 (ix2 i j) = BitVec.ofNat 32 j.val :=
    iota_single_apply .tc S128x128 32 1 iota_S128x128_d1_w32 (ix2 i j)
  unfold colHead k1_pay5 k1_pay6
  dsimp only [select, andi, cmpi, subi, extui, divsi, remsi, broadcast]
  rw [hw]
  clear hw
  revert j
  decide +kernel

/-- Two head numbers below 2 compare equal as words exactly when they are equal. -/
theorem head_eq_word : ∀ a b : Fin 2,
    IntOp.cmpi .eq (BitVec.ofNat 32 a.val) (BitVec.ofNat 32 b.val) = if a.val = b.val then 1#1 else 0#1 := by
  decide

/-- The mask keeps (i, j) exactly when the two columns lie in the same head. -/
theorem mask_apply (i j : Fin 128) :
    cmpi .eq k1_pay4 colHead (ix2 i j) = if i.val / 64 = j.val / 64 then 1#1 else 0#1 := by
  show IntOp.cmpi .eq (k1_pay4 (ix2 i j)) (colHead (ix2 i j)) = _
  rw [rowHead_apply, colHead_apply]
  exact head_eq_word ⟨i.val / 64, by have := i.isLt; omega⟩ ⟨j.val / 64, by have := j.isLt; omega⟩

/-- The Gram matrix of the block's columns at (i, j). -/
theorem gram_apply (x0 : FVec Ideal S2048x128 .bf16) (i j : Fin 128) :
    k1_pay3 (F := Ideal) x0 (ix2 i j) = ∑ k : Fin 2048, x0 (ix2 k i) * x0 (ix2 k j) := by
  unfold k1_pay3 k1_pay2
  rw [shapeCast_self]
  exact Cert.MatmulTN.matmul_zero_apply 2048 128 128 none x0 x0 i j

/-- What the attention body stores at position s and column j of its block. -/
theorem blockVal_apply (x0 : FVec Ideal S2048x128 .bf16) (s : Fin 2048) (j : Fin 128) :
    k1_pay1 (F := Ideal) (k1_pay2 x0) (k1_pay3 x0) k1_pay4 (iota .tc S128x128 32 [1] iota_S128x128_d1_w32) 64#32 k1_pay5 k1_pay6
      (Scalar.subi (Scalar.extui (Scalar.cmpi .sgt 64#32 0#32)) (Scalar.extui (Scalar.cmpi .slt 64#32 0#32))) (ix2 s j)
    = attnBlk (mat x0) s j := by
  unfold k1_pay1
  refine (truncf_apply (φ := .f32) (ψ := .bf16) _ _ _).trans ?_
  refine (Cert.PlainMatmul.matmul_zero_apply 2048 128 128 (some .fp32) _ _ s j).trans ?_
  unfold attnBlk
  refine Finset.sum_congr rfl fun i _ => ?_
  refine congrArg₂ (· * ·) ?_ ?_
  · show (shapeCast S2048x128 x0 _) (ix2 s i) = x0 (ix2 s i)
    rw [shapeCast_self]
  · refine (mulf_apply _ _ _).trans ?_
    refine congrArg₂ (· * ·) ?_ rfl
    refine (select_apply _ _ _ _).trans ?_
    refine (congrArg (fun c => Scalar.select c _ _) (mask_apply i j)).trans ?_
    by_cases hc : i.val / 64 = j.val / 64
    · rw [if_pos hc, if_pos hc, select_one]
      exact gram_apply x0 i j
    · rw [if_neg hc, if_neg hc, select_zero]
      exact Ideal.ofBits_zero_f32

end Cert.KernelIdeal.Pay

end
-- ==== Proof.Blocks.lean ====
/-
  From blocks to whole arrays, one call at a time, at any contents V the call is entered with.

  Each call writes its output array block by block; what grid point t writes back is the body's stored block, a
  function of the input blocks at t. A block of a window at point t sits at offset (block index × block extent) on
  each axis, so an entry (p, q) of the block is entry (index₀·extent₀ + p, index₁·extent₁ + q) of the array. With the
  index maps read off the printed program — the projections walk 8 blocks of 512 rows and keep the weight and bias
  blocks fixed; the attention walks 2 × 8 blocks of 2048 rows by 128 columns, the same block in and out — each stored
  block is the restriction of ONE function of the whole input arrays (`G0`, `G1`, `G2`), the blocks cover the output
  array, and so the array after the call is that function.
-/
import proofs.«122233_j8297876815995_2_alg».proof.Proof.Gen.KernelIdeal.Frame
import proofs.«122233_j8297876815995_2_alg».proof.Proof.Payloads

set_option maxRecDepth 16384

noncomputable section

open scoped BigOperators

namespace Cert.KernelIdeal.Blocks

open Cert.KernelIdeal Cert.KernelIdeal.Gen Idealize.ShloMosaic Idealize.ShloMosaic.TcCoe Idealize.ShloMosaic.ValueIdx
open Cert.LinAttn Cert.KernelIdeal.Pay
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The input projection (the first call) -/

/-- The projected array as one function of the three arrays the call reads: row r, output g. -/
def G0 (A : S4096x1024.Idx → Elt Ideal .bf16) (Wt : S1024x1024.Idx → Elt Ideal .bf16) (Bv : S1x1024.Idx → Elt Ideal .f32) :
    S4096x1024.Idx → Elt Ideal .bf16 :=
  fun y => dense (mat A) (fun g k => Wt (ix2 k g)) (fun g => Bv (ix2 (0 : Fin 1) g)) (y 0) (y 1)

/-- One block's stored entry is the whole-array function at the entry's place in the array, as soon as the block's
    loads are the arrays' entries there. -/
theorem point0 (x0 : FVec Ideal S512x1024 .bf16) (x1 : FVec Ideal S1024x1024 .bf16) (x2 : FVec Ideal S1x1024 .f32)
    (A : S4096x1024.Idx → Elt Ideal .bf16) (Wt : S1024x1024.Idx → Elt Ideal .bf16) (Bv : S1x1024.Idx → Elt Ideal .f32)
    (y : S512x1024.Idx) (i : S4096x1024.Idx)
    (h0 : ∀ k : Fin 1024, x0 (ix2 (y 0) k) = A (ix2 (i 0) k))
    (h1 : ∀ k : Fin 1024, x1 (ix2 k (y 1)) = Wt (ix2 k (i 1)))
    (h2 : x2 (ix2 (0 : Fin 1) (y 1)) = Bv (ix2 (0 : Fin 1) (i 1))) :
    k0_pay1 (F := Ideal) x0 x1 x2 y = G0 A Wt Bv i := by
  refine ((congrArg (k0_pay1 (F := Ideal) x0 x1 x2) (eq_ix2 y)).trans (pay0_apply x0 x1 x2 (y 0) (y 1))).trans ?_
  unfold G0 dense mat
  simp only [h0, h1, h2]

/-- The printed index maps, decided over the grid. -/
theorem idx0 : ∀ t : Fin cfg0.N, win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 7 ∧ win0_3.index t (1 : Fin 2) = 0 :=
  (by decide +kernel : ∀ t : Fin grid0.N, _)

/-- Every block of rows is some point's. -/
theorem onto0 : ∀ q : Fin 8, ∃ t : Fin cfg0.N, win0_3.index t = ![q.val, 0] :=
  (by decide +kernel : ∀ q : Fin 8, ∃ t : Fin grid0.N, win0_3.index t = ![q.val, 0])

/-- What point t writes back is block t of the projected array. -/
theorem flushed0 (c : Dev nD) (t : Fin cfg0.N) :
    (dat0 (F := Ideal) V c).flushed 3 t
      = ((cfg0.win 3).blk t).view.read (Elt Ideal) (G0 (V c main_v1) (V c main_v3) (V c main_v4)) := by
  show (cfg0.win 3).cut (grid0.coords t) ((dat0 V c).after 3 t) = _
  rw [after0_3]
  unfold out0_3
  rw [View.canon_unit_zero hz]
  simp only [View.ld_unit_zero (S := S512x1024) hz, View.ld_unit_zero (S := S1024x1024) hz, View.ld_unit_zero (S := S1x1024) hz]
  obtain ⟨e0, e1, e2, e3, e4, e5, e6, e7⟩ := idx0 t
  funext j
  refine point0 (iblk0 V c 0 t) (iblk0 V c 1 t) (iblk0 V c 2 t) (V c main_v1) (V c main_v3) (V c main_v4) j
    (((cfg0.win 3).blk t).view.emb j) (fun k => ?_) (fun k => ?_) ?_
  · show V c main_v1 (((cfg0.win 0).blk t).view.emb (ix2 (j 0) k)) = _
    refine congrArg (V c main_v1) (funext fun a => Fin.ext ?_)
    match a with
    | ⟨0, _⟩ => show win0_0.index t (0 : Fin 2) * 512 + 1 * (j 0).val = win0_3.index t (0 : Fin 2) * 512 + 1 * (j 0).val; omega
    | ⟨1, _⟩ => show win0_0.index t (1 : Fin 2) * 1024 + 1 * k.val = k.val; omega
  · show V c main_v3 (((cfg0.win 1).blk t).view.emb (ix2 k (j 1))) = _
    refine congrArg (V c main_v3) (funext fun a => Fin.ext ?_)
    match a with
    | ⟨0, _⟩ => show win0_1.index t (0 : Fin 2) * 1024 + 1 * k.val = k.val; omega
    | ⟨1, _⟩ => show win0_1.index t (1 : Fin 2) * 1024 + 1 * (j 1).val = win0_3.index t (1 : Fin 2) * 1024 + 1 * (j 1).val; omega
  · show V c main_v4 (((cfg0.win 2).blk t).view.emb (ix2 (0 : Fin 1) (j 1))) = _
    refine congrArg (V c main_v4) (funext fun a => Fin.ext ?_)
    match a with
    | ⟨0, _⟩ => show win0_2.index t (0 : Fin 2) * 1 + 1 * 0 = 0; omega
    | ⟨1, _⟩ => show win0_2.index t (1 : Fin 2) * 1024 + 1 * (j 1).val = win0_3.index t (1 : Fin 2) * 1024 + 1 * (j 1).val; omega

/-- An index of the array is in point t's block iff each coordinate is in the block's range on its axis. -/
theorem mem_blk0 (t : Fin cfg0.N) (i : S4096x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v5).slice (win0_3.rect t)).set ↔ _
  rw [View.set_slice_whole, Rect.mem_set_unit]
  exact Iff.rfl

/-- The eight blocks of 512 rows cover the array: row r lies in block r div 512. -/
theorem cover0 (i : S4096x1024.Idx) :
    ∃ t : Fin cfg0.N, (cfg0.win 3).flush t = true ∧ i ∈ ((cfg0.win 3).blk t).view.set := by
  have hi0 : (i 0).val < 4096 := (i 0).isLt
  have hi1 : (i 1).val < 1024 := (i 1).isLt
  obtain ⟨t, ht⟩ := onto0 ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- After the first call the projected array holds `G0` of the arrays the call found. -/
theorem final0 (c : Dev nD) :
    (dat0 (F := Ideal) V c).arrAt 3 cfg0.N = G0 (V c main_v1) (V c main_v3) (V c main_v4) :=
  (dat0 V c).arrAt_eq_of_cover 3 _ (fun t _ => flushed0 V c t) cover0

/-! ## The attention (the second call) -/

theorem ix2_congr {M N : Nat} {a a' : Fin M} {b b' : Fin N} (ha : a.val = a'.val) (hb : b.val = b'.val) :
    (ix2 a b : (⟨2, ![M, N]⟩ : Shape).Idx) = ix2 a' b' := by
  rw [Fin.ext ha, Fin.ext hb]

/-- The attention array as one function of the projected array: at row b·2048 + s and column h·64 + d, the
    attention value of batch entry b, position s, head h, feature d. -/
def G1 (A : S4096x1024.Idx → Elt Ideal .bf16) : S4096x1024.Idx → Elt Ideal .bf16 :=
  fun y => attn (mat A)
    ⟨(y 0).val / 2048, by have h : (y 0).val < 4096 := (y 0).isLt; omega⟩
    ⟨(y 0).val % 2048, by omega⟩
    ⟨(y 1).val / 64, by have h : (y 1).val < 1024 := (y 1).isLt; omega⟩
    ⟨(y 1).val % 64, by omega⟩

/-- One block's stored entry is the whole-array function at the entry's place in the array: the block (b, hp) holds
    rows b·2048 … and columns hp·128 …, that is heads 2·hp and 2·hp + 1. -/
theorem point1 (x0 : FVec Ideal S2048x128 .bf16) (A : S4096x1024.Idx → Elt Ideal .bf16)
    (y : S2048x128.Idx) (i : S4096x1024.Idx) (b : Fin 2) (hp : Fin 8)
    (hx : ∀ (s : Fin 2048) (l : Fin 128), x0 (ix2 s l)
      = A (ix2 (⟨b.val * 2048 + s.val, by have := b.isLt; have := s.isLt; omega⟩ : Fin 4096)
              (⟨hp.val * 128 + l.val, by have := hp.isLt; have := l.isLt; omega⟩ : Fin 1024)))
    (hi0 : (i 0).val = b.val * 2048 + (y 0).val) (hi1 : (i 1).val = hp.val * 128 + (y 1).val) :
    k1_pay1 (F := Ideal) (k1_pay2 x0) (k1_pay3 x0) k1_pay4 (iota .tc S128x128 32 [1] iota_S128x128_d1_w32) 64#32 k1_pay5 k1_pay6
      (Scalar.subi (Scalar.extui (Scalar.cmpi .sgt 64#32 0#32)) (Scalar.extui (Scalar.cmpi .slt 64#32 0#32))) y
    = G1 A i := by
  have hy0 : (y 0).val < 2048 := (y 0).isLt
  have hy1 : (y 1).val < 128 := (y 1).isLt
  have hb2 := b.isLt
  have hp8 := hp.isLt
  refine ((congrArg _ (eq_ix2 y)).trans (blockVal_apply x0 (y 0) (y 1))).trans ?_
  refine (attnBlk_eq (mat x0) (y 0) (y 1)).trans ?_
  unfold G1 attn
  have hA : ∀ (s : Fin 2048) (l : Fin 128) (r : Fin 4096) (g : Fin 1024), r.val = b.val * 2048 + s.val →
      g.val = hp.val * 128 + l.val → mat x0 s l = mat A r g := fun s l r g hr hg => by
    unfold mat; rw [hx]; exact congrArg A (ix2_congr hr.symm hg.symm)
  refine Finset.sum_congr rfl fun e _ => ?_
  have he : e.val < 64 := e.isLt
  refine congrArg₂ (· * ·) (hA _ _ _ _ ?_ ?_) (congrArg (· * scale) (Finset.sum_congr rfl fun k _ =>
    congrArg₂ (· * ·) (hA _ _ _ _ ?_ ?_) (hA _ _ _ _ ?_ ?_)))
  all_goals (dsimp only [row, col]; omega)

theorem idx1 : ∀ t : Fin cfg1.N, win1_0.index t (0 : Fin 2) = win1_1.index t (0 : Fin 2)
    ∧ win1_0.index t (1 : Fin 2) = win1_1.index t (1 : Fin 2)
    ∧ win1_1.index t (0 : Fin 2) ≤ 1 ∧ win1_1.index t (1 : Fin 2) ≤ 7 :=
  (by decide +kernel : ∀ t : Fin grid1.N, _)

theorem onto1 : ∀ (q0 : Fin 2) (q1 : Fin 8), ∃ t : Fin cfg1.N, win1_1.index t = ![q0.val, q1.val] :=
  (by decide +kernel : ∀ (q0 : Fin 2) (q1 : Fin 8), ∃ t : Fin grid1.N, win1_1.index t = ![q0.val, q1.val])

/-- What point t writes back is block t of the attention array. -/
theorem flushed1 (c : Dev nD) (t : Fin cfg1.N) :
    (dat1 (F := Ideal) V c).flushed 1 t = ((cfg1.win 1).blk t).view.read (Elt Ideal) (G1 (V c main_v5)) := by
  show (cfg1.win 1).cut (grid1.coords t) ((dat1 V c).after 1 t) = _
  rw [after1_1]
  unfold out1_1
  rw [View.canon_unit_zero hz]
  simp only [View.ld_unit_zero (S := S2048x128) hz]
  obtain ⟨e0, e1, e2, e3⟩ := idx1 t
  funext j
  refine point1 (iblk1 V c 0 t) (V c main_v5) j (((cfg1.win 1).blk t).view.emb j)
    ⟨win1_1.index t (0 : Fin 2), by omega⟩ ⟨win1_1.index t (1 : Fin 2), by omega⟩ (fun s l => ?_) ?_ ?_
  · show V c main_v5 (((cfg1.win 0).blk t).view.emb (ix2 s l)) = _
    refine congrArg (V c main_v5) (funext fun a => Fin.ext ?_)
    match a with
    | ⟨0, _⟩ => show win1_0.index t (0 : Fin 2) * 2048 + 1 * s.val = win1_1.index t (0 : Fin 2) * 2048 + s.val; omega
    | ⟨1, _⟩ => show win1_0.index t (1 : Fin 2) * 128 + 1 * l.val = win1_1.index t (1 : Fin 2) * 128 + l.val; omega
  · show win1_1.index t (0 : Fin 2) * 2048 + 1 * (j 0).val = win1_1.index t (0 : Fin 2) * 2048 + (j 0).val; omega
  · show win1_1.index t (1 : Fin 2) * 128 + 1 * (j 1).val = win1_1.index t (1 : Fin 2) * 128 + (j 1).val; omega

theorem mem_blk1 (t : Fin cfg1.N) (i : S4096x1024.Idx) :
    i ∈ ((cfg1.win 1).blk t).view.set ↔ ∀ a : Fin 2, win1_1.index t a * S2048x128.size a ≤ (i a).val
      ∧ (i a).val < win1_1.index t a * S2048x128.size a + S2048x128.size a := by
  show i ∈ ((View.whole main_v6).slice (win1_1.rect t)).set ↔ _
  rw [View.set_slice_whole, Rect.mem_set_unit]
  exact Iff.rfl

/-- The sixteen blocks cover the array: (r, g) lies in block (r div 2048, g div 128). -/
theorem cover1 (i : S4096x1024.Idx) :
    ∃ t : Fin cfg1.N, (cfg1.win 1).flush t = true ∧ i ∈ ((cfg1.win 1).blk t).view.set := by
  have hi0 : (i 0).val < 4096 := (i 0).isLt
  have hi1 : (i 1).val < 1024 := (i 1).isLt
  obtain ⟨t, ht⟩ := onto1 ⟨(i 0).val / 2048, by omega⟩ ⟨(i 1).val / 128, by omega⟩
  have q0 : win1_1.index t (0 : Fin 2) = (i 0).val / 2048 := congrFun ht 0
  have q1 : win1_1.index t (1 : Fin 2) = (i 1).val / 128 := congrFun ht 1
  refine ⟨t, flush1_1 t, ?_⟩
  rw [mem_blk1]
  intro a
  match a with
  | ⟨0, _⟩ => show win1_1.index t (0 : Fin 2) * 2048 ≤ (i 0).val ∧ (i 0).val < win1_1.index t (0 : Fin 2) * 2048 + 2048; omega
  | ⟨1, _⟩ => show win1_1.index t (1 : Fin 2) * 128 ≤ (i 1).val ∧ (i 1).val < win1_1.index t (1 : Fin 2) * 128 + 128; omega

/-- After the second call the attention array holds `G1` of the projected array the call found. -/
theorem final1 (c : Dev nD) : (dat1 (F := Ideal) V c).arrAt 1 cfg1.N = G1 (V c main_v5) :=
  (dat1 V c).arrAt_eq_of_cover 1 _ (fun t _ => flushed1 V c t) cover1

/-! ## The output projection (the third call) -/

/-- The result array before its last re-laying, as one function of the three arrays the call reads. -/
def G2 (A : S4096x1024.Idx → Elt Ideal .bf16) (Wt : S1024x1000.Idx → Elt Ideal .bf16) (Bv : S1x1000.Idx → Elt Ideal .f32) :
    S4096x1000.Idx → Elt Ideal .f32 :=
  fun y => dense (mat A) (fun g k => Wt (ix2 k g)) (fun g => Bv (ix2 (0 : Fin 1) g)) (y 0) (y 1)

theorem point2 (x0 : FVec Ideal S512x1024 .bf16) (x1 : FVec Ideal S1024x1000 .bf16) (x2 : FVec Ideal S1x1000 .f32)
    (A : S4096x1024.Idx → Elt Ideal .bf16) (Wt : S1024x1000.Idx → Elt Ideal .bf16) (Bv : S1x1000.Idx → Elt Ideal .f32)
    (y : S512x1000.Idx) (i : S4096x1000.Idx)
    (h0 : ∀ k : Fin 1024, x0 (ix2 (y 0) k) = A (ix2 (i 0) k))
    (h1 : ∀ k : Fin 1024, x1 (ix2 k (y 1)) = Wt (ix2 k (i 1)))
    (h2 : x2 (ix2 (0 : Fin 1) (y 1)) = Bv (ix2 (0 : Fin 1) (i 1))) :
    k2_pay1 (F := Ideal) x0 x1 x2 y = G2 A Wt Bv i := by
  refine ((congrArg (k2_pay1 (F := Ideal) x0 x1 x2) (eq_ix2 y)).trans (pay2_apply x0 x1 x2 (y 0) (y 1))).trans ?_
  unfold G2 dense mat
  simp only [h0, h1, h2]

theorem idx2 : ∀ t : Fin cfg2.N, win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) ≤ 7 ∧ win2_3.index t (1 : Fin 2) = 0 :=
  (by decide +kernel : ∀ t : Fin grid2.N, _)

theorem onto2 : ∀ q : Fin 8, ∃ t : Fin cfg2.N, win2_3.index t = ![q.val, 0] :=
  (by decide +kernel : ∀ q : Fin 8, ∃ t : Fin grid2.N, win2_3.index t = ![q.val, 0])

/-- What point t writes back is block t of the result array. -/
theorem flushed2 (c : Dev nD) (t : Fin cfg2.N) :
    (dat2 (F := Ideal) V c).flushed 3 t
      = ((cfg2.win 3).blk t).view.read (Elt Ideal) (G2 (V c main_v6) (V c main_v8) (V c main_v9)) := by
  show (cfg2.win 3).cut (grid2.coords t) ((dat2 V c).after 3 t) = _
  rw [after2_3]
  unfold out2_3
  rw [View.canon_unit_zero hz]
  simp only [View.ld_unit_zero (S := S512x1024) hz, View.ld_unit_zero (S := S1024x1000) hz, View.ld_unit_zero (S := S1x1000) hz]
  obtain ⟨e0, e1, e2, e3, e4, e5, e6, e7⟩ := idx2 t
  funext j
  refine point2 (iblk2 V c 0 t) (iblk2 V c 1 t) (iblk2 V c 2 t) (V c main_v6) (V c main_v8) (V c main_v9) j
    (((cfg2.win 3).blk t).view.emb j) (fun k => ?_) (fun k => ?_) ?_
  · show V c main_v6 (((cfg2.win 0).blk t).view.emb (ix2 (j 0) k)) = _
    refine congrArg (V c main_v6) (funext fun a => Fin.ext ?_)
    match a with
    | ⟨0, _⟩ => show win2_0.index t (0 : Fin 2) * 512 + 1 * (j 0).val = win2_3.index t (0 : Fin 2) * 512 + 1 * (j 0).val; omega
    | ⟨1, _⟩ => show win2_0.index t (1 : Fin 2) * 1024 + 1 * k.val = k.val; omega
  · show V c main_v8 (((cfg2.win 1).blk t).view.emb (ix2 k (j 1))) = _
    refine congrArg (V c main_v8) (funext fun a => Fin.ext ?_)
    match a with
    | ⟨0, _⟩ => show win2_1.index t (0 : Fin 2) * 1024 + 1 * k.val = k.val; omega
    | ⟨1, _⟩ => show win2_1.index t (1 : Fin 2) * 1000 + 1 * (j 1).val = win2_3.index t (1 : Fin 2) * 1000 + 1 * (j 1).val; omega
  · show V c main_v9 (((cfg2.win 2).blk t).view.emb (ix2 (0 : Fin 1) (j 1))) = _
    refine congrArg (V c main_v9) (funext fun a => Fin.ext ?_)
    match a with
    | ⟨0, _⟩ => show win2_2.index t (0 : Fin 2) * 1 + 1 * 0 = 0; omega
    | ⟨1, _⟩ => show win2_2.index t (1 : Fin 2) * 1000 + 1 * (j 1).val = win2_3.index t (1 : Fin 2) * 1000 + 1 * (j 1).val; omega

theorem mem_blk2 (t : Fin cfg2.N) (i : S4096x1000.Idx) :
    i ∈ ((cfg2.win 3).blk t).view.set ↔ ∀ a : Fin 2, win2_3.index t a * S512x1000.size a ≤ (i a).val
      ∧ (i a).val < win2_3.index t a * S512x1000.size a + S512x1000.size a := by
  show i ∈ ((View.whole main_v10).slice (win2_3.rect t)).set ↔ _
  rw [View.set_slice_whole, Rect.mem_set_unit]
  exact Iff.rfl

theorem cover2 (i : S4096x1000.Idx) :
    ∃ t : Fin cfg2.N, (cfg2.win 3).flush t = true ∧ i ∈ ((cfg2.win 3).blk t).view.set := by
  have hi0 : (i 0).val < 4096 := (i 0).isLt
  have hi1 : (i 1).val < 1000 := (i 1).isLt
  obtain ⟨t, ht⟩ := onto2 ⟨(i 0).val / 512, by omega⟩
  have q0 : win2_3.index t (0 : Fin 2) = (i 0).val / 512 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 1000 ≤ (i 1).val ∧ (i 1).val < win2_3.index t (1 : Fin 2) * 1000 + 1000; omega

/-- After the third call the result array holds `G2` of the arrays the call found. -/
theorem final2 (c : Dev nD) :
    (dat2 (F := Ideal) V c).arrAt 3 cfg2.N = G2 (V c main_v6) (V c main_v8) (V c main_v9) :=
  (dat2 V c).arrAt_eq_of_cover 3 _ (fun t _ => flushed2 V c t) cover2

end Cert.KernelIdeal.Blocks

end
-- ==== Proof.Layer.lean ====
/-
  The whole layer as one function of the five argument arrays, on the extended reals, in the two orders of forming
  the attention value, and their agreement on real inputs.

  x is [2, 2048, 1024]; its row r = b·2048 + s is x(b, s, ·). The projected array P = dense X W_in b_in is real as soon as
  x, W_in and b_in are (a finite sum of products of reals plus a real), which is what lets the attention value be
  formed in either order (`attnRef_eq_attn`); the output projection is the same function of the attention array on
  both sides and needs nothing of W_out and b_out.
-/
import proofs.«122233_j8297876815995_2_alg».proof.Proof.Spec

noncomputable section

open scoped BigOperators

namespace Cert.LinAttn

open Idealize.ShloMosaic Idealize.ShloMosaic.ValueIdx Cert.LibRealEntries

/-- The input as 4096 rows: row r is batch entry r div 2048, position r mod 2048. -/
def X (x : (⟨3, ![2, 2048, 1024]⟩ : Shape).Idx → EReal) (r : Fin 4096) (k : Fin 1024) : EReal :=
  x (ix3 (⟨r.val / 2048, by have := r.isLt; omega⟩ : Fin 2) (⟨r.val % 2048, by omega⟩ : Fin 2048) k)

/-- A rank-1 array as a function of its index. -/
def vec {N : Nat} (b : (⟨1, ![N]⟩ : Shape).Idx → EReal) (g : Fin N) : EReal := b (ix1 g)

/-- The projected array. -/
def proj (x : (⟨3, ![2, 2048, 1024]⟩ : Shape).Idx → EReal) (w : (⟨2, ![1024, 1024]⟩ : Shape).Idx → EReal)
    (b : (⟨1, ![1024]⟩ : Shape).Idx → EReal) : Fin 4096 → Fin 1024 → EReal :=
  dense (X x) (mat w) (vec b)

/-- The attention array, Gram matrix first: row r = b·2048 + s, column j = h·64 + d. -/
def vals (P : Fin 4096 → Fin 1024 → EReal) (r : Fin 4096) (j : Fin 1024) : EReal :=
  attn P ⟨r.val / 2048, by have := r.isLt; omega⟩ ⟨r.val % 2048, by omega⟩
    ⟨j.val / 64, by have := j.isLt; omega⟩ ⟨j.val % 64, by omega⟩

/-- The attention array, scores first. -/
def valsRef (P : Fin 4096 → Fin 1024 → EReal) (r : Fin 4096) (j : Fin 1024) : EReal :=
  attnRef P ⟨r.val / 2048, by have := r.isLt; omega⟩ ⟨r.val % 2048, by omega⟩
    ⟨j.val / 64, by have := j.isLt; omega⟩ ⟨j.val % 64, by omega⟩

/-- The layer's result at (b, s, c), Gram matrix first. -/
def out (x : (⟨3, ![2, 2048, 1024]⟩ : Shape).Idx → EReal) (w : (⟨2, ![1024, 1024]⟩ : Shape).Idx → EReal)
    (b : (⟨1, ![1024]⟩ : Shape).Idx → EReal) (wo : (⟨2, ![1000, 1024]⟩ : Shape).Idx → EReal)
    (bo : (⟨1, ![1000]⟩ : Shape).Idx → EReal) : (⟨3, ![2, 2048, 1000]⟩ : Shape).Idx → EReal :=
  fun i => dense (vals (proj x w b)) (mat wo) (vec bo) (row (i 0) (i 1)) (i 2)

/-- The layer's result at (b, s, c), scores first. -/
def outRef (x : (⟨3, ![2, 2048, 1024]⟩ : Shape).Idx → EReal) (w : (⟨2, ![1024, 1024]⟩ : Shape).Idx → EReal)
    (b : (⟨1, ![1024]⟩ : Shape).Idx → EReal) (wo : (⟨2, ![1000, 1024]⟩ : Shape).Idx → EReal)
    (bo : (⟨1, ![1000]⟩ : Shape).Idx → EReal) : (⟨3, ![2, 2048, 1000]⟩ : Shape).Idx → EReal :=
  fun i => dense (valsRef (proj x w b)) (mat wo) (vec bo) (row (i 0) (i 1)) (i 2)

/-- On real x, W_in and b_in the two orders give one result, whatever W_out and b_out are. -/
theorem outRef_eq_out (x : (⟨3, ![2, 2048, 1024]⟩ : Shape).Idx → EReal) (w : (⟨2, ![1024, 1024]⟩ : Shape).Idx → EReal)
    (b : (⟨1, ![1024]⟩ : Shape).Idx → EReal) (wo : (⟨2, ![1000, 1024]⟩ : Shape).Idx → EReal)
    (bo : (⟨1, ![1000]⟩ : Shape).Idx → EReal)
    (hx : ∀ i, IsReal (x i)) (hw : ∀ i, IsReal (w i)) (hb : ∀ i, IsReal (b i)) :
    outRef x w b wo bo = out x w b wo bo := by
  have hP : ∀ r g, IsReal (proj x w b r g) := fun r g =>
    dense_real (fun _ _ => hx _) (fun _ _ => hw _) (fun _ => hb _) r g
  have hv : valsRef (proj x w b) = vals (proj x w b) := by
    funext r j
    exact attnRef_eq_attn _ hP _ _ _ _
  unfold outRef out
  rw [hv]

end Cert.LinAttn

end
-- ==== Proof.Stages.lean ====
/-
  The kernel program's result array as one function of the five arguments.

  Between the calls the host only re-lays arrays: x [2, 2048, 1024] is read as 4096 rows; W_in and W_out are
  transposed, so entry (k, g) of the operand a call sees is entry (g, k) of the argument; the biases become single
  rows; every change of float format is the identity on the extended reals; and the last call's [4096, 1000] array is
  read back as [2, 2048, 1000]. With each call's output array known as a function of the arrays it found (the three
  whole-array functions of the blocks module), the result at (b, s, c) is the dense layer of the attention array of
  the projected array, at row b·2048 + s: `out`. No entry needs to be finite for any of this.
-/
import proofs.«122233_j8297876815995_2_alg».proof.Proof.Gen.KernelIdeal.Frame
import Idealize.ShloMosaic.Lib.StableHlo.Run
import Idealize.ShloMosaic.Lib.ValueLayout
import proofs.«122233_j8297876815995_2_alg».proof.Proof.Blocks
import proofs.«122233_j8297876815995_2_alg».proof.Proof.Layer

set_option maxRecDepth 16384

noncomputable section

open scoped BigOperators

namespace Cert.KernelIdeal.Stages

open Cert.KernelIdeal Cert.KernelIdeal.Gen Idealize.ShloMosaic Idealize.ShloMosaic.TcCoe Idealize.ShloMosaic.StableHlo
open Idealize.ShloMosaic.ValueIdx Cert.LinAttn Cert.KernelIdeal.Blocks
open Idealize.SL.Sem

variable (m : (ℓ : Loc nD τ sig) → Buf (Elt Ideal) ℓ) (ρ : Dev nD → PrngReg)

/-! ## The host stages, as whole arrays -/

theorem v1_eq (c : Dev nD) : (V1 m ρ c main_v1 : S4096x1024.Idx → Elt Ideal .bf16)
    = truncf (F := Ideal) .bf16 (shapeCast S4096x1024 (m ((c : Thread nD τ).loc main_arg0)) shapeCasts_S2x2048x1024_S4096x1024) bitsLt_bf16_f32 := by
  show StableHlo.after hostOps0 (W0 m ρ c) (Proc.devRef .tc main_v1) = _
  after_results
  rfl

theorem v3_eq (c : Dev nD) : (V1 m ρ c main_v3 : S1024x1024.Idx → Elt Ideal .bf16)
    = truncf (F := Ideal) .bf16 (transpose S1024x1024 [1, 0] (m ((c : Thread nD τ).loc main_arg1)) transposes_S1024x1024_S1024x1024_1_0) bitsLt_bf16_f32 := by
  show StableHlo.after hostOps0 (W0 m ρ c) (Proc.devRef .tc main_v3) = _
  after_results

theorem v4_eq (c : Dev nD) : (V1 m ρ c main_v4 : S1x1024.Idx → Elt Ideal .f32)
    = shapeCast S1x1024 (m ((c : Thread nD τ).loc main_arg2)) shapeCasts_S1024_S1x1024 := by
  show StableHlo.after hostOps0 (W0 m ρ c) (Proc.devRef .tc main_v4) = _
  after_results
  rfl

theorem v6_eq (c : Dev nD) : V4 m ρ c main_v6 = W3 m ρ c (Proc.devRef .tc main_v6) := by
  show StableHlo.after hostOps2 (W3 m ρ c) (Proc.devRef .tc main_v6) = _
  after_results

theorem arg3_eq (c : Dev nD) : W3 m ρ c (Proc.devRef .tc main_arg3) = m ((c : Thread nD τ).loc main_arg3) := by
  rw [W3_of_ne m ρ c main_arg3 (by decide), W2_of_ne m ρ c main_arg3 (by decide)]
  show StableHlo.after hostOps0 (W0 m ρ c) (Proc.devRef .tc main_arg3) = _
  after_results

theorem arg4_eq (c : Dev nD) : W3 m ρ c (Proc.devRef .tc main_arg4) = m ((c : Thread nD τ).loc main_arg4) := by
  rw [W3_of_ne m ρ c main_arg4 (by decide), W2_of_ne m ρ c main_arg4 (by decide)]
  show StableHlo.after hostOps0 (W0 m ρ c) (Proc.devRef .tc main_arg4) = _
  after_results

theorem v8_eq (c : Dev nD) : (V4 m ρ c main_v8 : S1024x1000.Idx → Elt Ideal .bf16)
    = truncf (F := Ideal) .bf16 (transpose S1024x1000 [1, 0] (m ((c : Thread nD τ).loc main_arg3)) transposes_S1000x1024_S1024x1000_1_0) bitsLt_bf16_f32 := by
  rw [← arg3_eq m ρ c]
  show StableHlo.after hostOps2 (W3 m ρ c) (Proc.devRef .tc main_v8) = _
  after_results

theorem v9_eq (c : Dev nD) : (V4 m ρ c main_v9 : S1x1000.Idx → Elt Ideal .f32)
    = shapeCast S1x1000 (m ((c : Thread nD τ).loc main_arg4)) shapeCasts_S1000_S1x1000 := by
  rw [← arg4_eq m ρ c]
  show StableHlo.after hostOps2 (W3 m ρ c) (Proc.devRef .tc main_v9) = _
  after_results
  rfl

theorem v11_eq (c : Dev nD) : (W6 m ρ c (Proc.devRef .tc main_v11) : S2x2048x1000.Idx → Elt Ideal .f32)
    = shapeCast S2x2048x1000 (W5 m ρ c (Proc.devRef .tc main_v10)) shapeCasts_S4096x1000_S2x2048x1000 := by
  show StableHlo.after hostOps3 (W5 m ρ c) (Proc.devRef .tc main_v11) = _
  after_results
  rfl

/-! ## The stages read by rows and columns -/

/-- The first call's row operand is x read as 4096 rows. -/
theorem rows_x (c : Dev nD) : mat (V1 m ρ c main_v1) = X (m ((c : Thread nD τ).loc main_arg0)) := by
  funext r k
  have hr := r.isLt
  unfold mat X
  refine (congrFun (v1_eq m ρ c) (ix2 r k)).trans ?_
  refine (truncf_apply (φ := .f32) (ψ := .bf16) _ _ _).trans ?_
  refine shapeCast_apply _ _ (ix2 r k) (ix3 (⟨r.val / 2048, by omega⟩ : Fin 2) (⟨r.val % 2048, by omega⟩ : Fin 2048) k) ?_
  rw [Shape.rowMajor_val_three, Shape.rowMajor_val_two]
  show (r.val / 2048 * 2048 + r.val % 2048) * 1024 + k.val = r.val * 1024 + k.val
  omega

/-- The first call's weight operand at (k, g) is W_in at (g, k). -/
theorem cols_w (c : Dev nD) :
    (fun (g : Fin 1024) (k : Fin 1024) => V1 m ρ c main_v3 (ix2 k g)) = mat (m ((c : Thread nD τ).loc main_arg1)) := by
  funext g k
  unfold mat
  refine (congrFun (v3_eq m ρ c) (ix2 k g)).trans ?_
  refine (truncf_apply (φ := .f32) (ψ := .bf16) _ _ _).trans ?_
  exact transpose_ix2_apply _ _ k g

/-- The first call's bias row is b_in. -/
theorem row_b (c : Dev nD) :
    (fun g : Fin 1024 => V1 m ρ c main_v4 (ix2 (0 : Fin 1) g)) = vec (m ((c : Thread nD τ).loc main_arg2)) := by
  funext g
  unfold vec
  refine (congrFun (v4_eq m ρ c) (ix2 (0 : Fin 1) g)).trans ?_
  exact shapeCast_a_1a_apply _ _ 0 g

/-- The projected array the second call finds. -/
theorem projected (c : Dev nD) : mat (V2 m ρ c main_v5)
    = proj (m ((c : Thread nD τ).loc main_arg0)) (m ((c : Thread nD τ).loc main_arg1)) (m ((c : Thread nD τ).loc main_arg2)) := by
  have h : V2 m ρ c main_v5 = G0 (V1 m ρ c main_v1) (V1 m ρ c main_v3) (V1 m ρ c main_v4) :=
    (W2_arr m ρ c 3).trans (final0 (V1 m ρ) c)
  funext r g
  unfold mat
  rw [h]
  show dense (mat (V1 m ρ c main_v1)) (fun g k => V1 m ρ c main_v3 (ix2 k g))
    (fun g => V1 m ρ c main_v4 (ix2 (0 : Fin 1) g)) r g = _
  rw [rows_x, cols_w, row_b]
  rfl

/-- The attention array the third call finds. -/
theorem attended (c : Dev nD) : mat (V4 m ρ c main_v6)
    = vals (proj (m ((c : Thread nD τ).loc main_arg0)) (m ((c : Thread nD τ).loc main_arg1)) (m ((c : Thread nD τ).loc main_arg2))) := by
  have h : V4 m ρ c main_v6 = G1 (V2 m ρ c main_v5) :=
    (v6_eq m ρ c).trans ((W3_arr m ρ c 1).trans (final1 (V2 m ρ) c))
  funext r j
  unfold mat
  rw [h]
  show attn (mat (V2 m ρ c main_v5)) _ _ _ _ = _
  rw [projected]
  rfl

/-- The third call's weight operand at (k, g) is W_out at (g, k). -/
theorem cols_wo (c : Dev nD) :
    (fun (g : Fin 1000) (k : Fin 1024) => V4 m ρ c main_v8 (ix2 k g)) = mat (m ((c : Thread nD τ).loc main_arg3)) := by
  funext g k
  unfold mat
  refine (congrFun (v8_eq m ρ c) (ix2 k g)).trans ?_
  refine (truncf_apply (φ := .f32) (ψ := .bf16) _ _ _).trans ?_
  exact transpose_ix2_apply _ _ k g

/-- The third call's bias row is b_out. -/
theorem row_bo (c : Dev nD) :
    (fun g : Fin 1000 => V4 m ρ c main_v9 (ix2 (0 : Fin 1) g)) = vec (m ((c : Thread nD τ).loc main_arg4)) := by
  funext g
  unfold vec
  refine (congrFun (v9_eq m ρ c) (ix2 (0 : Fin 1) g)).trans ?_
  exact shapeCast_a_1a_apply _ _ 0 g

/-! ## The result -/

/-- What the program's chain of segments leaves in the result array is the layer, Gram matrix first. -/
theorem result_eq (c : Dev nD) : W6 m ρ c (Proc.devRef .tc main_v11)
    = out (m ((c : Thread nD τ).loc main_arg0)) (m ((c : Thread nD τ).loc main_arg1)) (m ((c : Thread nD τ).loc main_arg2))
        (m ((c : Thread nD τ).loc main_arg3)) (m ((c : Thread nD τ).loc main_arg4)) := by
  have h10 : W5 m ρ c (Proc.devRef .tc main_v10) = G2 (V4 m ρ c main_v6) (V4 m ρ c main_v8) (V4 m ρ c main_v9) :=
    (W5_arr m ρ c 3).trans (final2 (V4 m ρ) c)
  funext i
  obtain ⟨b, s, cc, rfl⟩ : ∃ (b : Fin 2) (s : Fin 2048) (cc : Fin 1000), i = ix3 b s cc := ⟨i 0, i 1, i 2, eq_ix3 i⟩
  refine (congrFun (v11_eq m ρ c) (ix3 b s cc)).trans ?_
  refine (shapeCast_apply _ _ (ix3 b s cc) (ix2 (row b s) cc) ?_).trans ?_
  · rw [Shape.rowMajor_val_two, Shape.rowMajor_val_three]
    rfl
  rw [h10]
  show dense (mat (V4 m ρ c main_v6)) (fun g k => V4 m ρ c main_v8 (ix2 k g))
    (fun g => V4 m ρ c main_v9 (ix2 (0 : Fin 1) g)) (row b s) cc = _
  rw [attended, cols_wo, row_bo]
  rfl

end Cert.KernelIdeal.Stages

end
-- ==== Proof.RefSide.lean ====
/-
  The reference, read at an index, is the layer with the positions' scores formed first.

  Its stages in order: the projected array x·W_inᵀ + b_in; the same array re-laid [batch, head, position, feature]
  (a reshape of the 1024 columns into 16 heads of 64 features and an exchange of two axes: entry (b, h, s, d) is the
  projected array at row b·2048 + s and column h·64 + d); per batch entry and head the scores Σ_e P(q,e)·P(k,e), scaled
  by the f32 word of 1/32; the scores times the projected array over the positions; the layout undone; and the output
  projection. Each layout step is an equation between flat row-major positions, settled by arithmetic on the literal
  extents.
-/
import proofs.«122233_j8297876815995_2_alg».proof.Proof.Gen.ReferenceIdeal.Read
import proofs.«122233_j8297876815995_2_alg».proof.Proof.Layer

noncomputable section

open scoped BigOperators

namespace Cert.ReferenceIdeal.RefValue

open Cert.ReferenceIdeal Cert.ReferenceIdeal.Gen Cert.ReferenceIdeal.Read
open Idealize.ShloMosaic Idealize.ShloMosaic.ValueIdx Cert.LinAttn

theorem ix3_ext {n0 n1 n2 : Nat} (j : (⟨3, ![n0, n1, n2]⟩ : Shape).Idx) (a : Fin n0) (b : Fin n1) (c : Fin n2)
    (h0 : (j 0).val = a.val) (h1 : (j 1).val = b.val) (h2 : (j 2).val = c.val) : j = ix3 a b c := by
  funext x
  match x with
  | ⟨0, _⟩ => exact Fin.ext h0
  | ⟨1, _⟩ => exact Fin.ext h1
  | ⟨2, _⟩ => exact Fin.ext h2

theorem ix4_ext {n0 n1 n2 n3 : Nat} (j : (⟨4, ![n0, n1, n2, n3]⟩ : Shape).Idx) (a : Fin n0) (b : Fin n1) (c : Fin n2)
    (d : Fin n3) (h0 : (j 0).val = a.val) (h1 : (j 1).val = b.val) (h2 : (j 2).val = c.val) (h3 : (j 3).val = d.val) :
    j = ix4 a b c d := by
  funext x
  match x with
  | ⟨0, _⟩ => exact Fin.ext h0
  | ⟨1, _⟩ => exact Fin.ext h1
  | ⟨2, _⟩ => exact Fin.ext h2
  | ⟨3, _⟩ => exact Fin.ext h3

theorem ix2_ext {n0 n1 : Nat} (j : (⟨2, ![n0, n1]⟩ : Shape).Idx) (a : Fin n0) (b : Fin n1)
    (h0 : (j 0).val = a.val) (h1 : (j 1).val = b.val) : j = ix2 a b := by
  funext x
  match x with
  | ⟨0, _⟩ => exact Fin.ext h0
  | ⟨1, _⟩ => exact Fin.ext h1

theorem ix1_ext {n0 : Nat} (j : (⟨1, ![n0]⟩ : Shape).Idx) (a : Fin n0) (h0 : (j 0).val = a.val) : j = ix1 a := by
  funext x
  match x with
  | ⟨0, _⟩ => exact Fin.ext h0

variable (x0 : (⟨S2x2048x1024, .f32⟩ : BufTy).Contents (Elt Ideal)) (x1 : (⟨S1024x1024, .f32⟩ : BufTy).Contents (Elt Ideal))
  (x2 : (⟨S1024, .f32⟩ : BufTy).Contents (Elt Ideal)) (x3 : (⟨S1000x1024, .f32⟩ : BufTy).Contents (Elt Ideal))
  (x4 : (⟨S1000, .f32⟩ : BufTy).Contents (Elt Ideal))

/-- The reference's projected array, laid [batch, head, position, feature], is `proj` at row b·2048 + s, column h·64 + d. -/
theorem ref_proj (b : Fin 2) (h : Fin 16) (s : Fin 2048) (d : Fin 64) :
    val_main_v5 (F := Ideal) x0 x1 x2 (ix4 b h s d) = proj x0 x1 x2 (row b s) (col h d) := by
  have hb := b.isLt; have hh := h.isLt; have hs := s.isLt; have hd := d.isLt
  rw [val_main_v5_apply, val_main_v4_apply, val_main_v3_apply, val_main_v0_apply, val_main_v2_apply, val_main_v1_apply]
  unfold proj dense X mat vec
  refine congrArg₂ (· + ·) (Finset.sum_congr rfl fun k _ => congrArg₂ (· * ·) (congrArg x0 ?_) (congrArg x1 ?_)) (congrArg x2 ?_)
  · refine ix3_ext _ _ _ _ ?_ ?_ ?_
    · show (((b.val * 2048 + s.val) * 16 + h.val) * 64 + d.val) / 2097152 = (b.val * 2048 + s.val) / 2048; omega
    · show (((b.val * 2048 + s.val) * 16 + h.val) * 64 + d.val) / 1024 % 2048 = (b.val * 2048 + s.val) % 2048; omega
    · rfl
  · refine ix2_ext _ _ _ ?_ ?_
    · show (((b.val * 2048 + s.val) * 16 + h.val) * 64 + d.val) % 1024 = h.val * 64 + d.val; omega
    · rfl
  · refine ix1_ext _ _ ?_
    show (((b.val * 2048 + s.val) * 16 + h.val) * 64 + d.val) % 1024 = h.val * 64 + d.val; omega

/-- The reference's attention array, back in [batch, position, 1024] layout, is `valsRef` of the projected array. -/
theorem ref_vals (b : Fin 2) (s : Fin 2048) (j : Fin 1024) :
    val_main_v11 (F := Ideal) x0 x1 x2 (ix3 b s j) = valsRef (proj x0 x1 x2) (row b s) j := by
  have hb := b.isLt; have hs := s.isLt; have hj := j.isLt
  rw [val_main_v11_apply, val_main_v10_apply, val_main_v9_apply]
  unfold valsRef attnRef
  refine Finset.sum_congr rfl fun k _ => ?_
  have hk := k.isLt
  rw [val_main_v8_apply, val_main_v6_apply, val_main_v7_apply, val_main_cst_apply]
  have e3 : ridx_main_v9 (idx_main_v10 (idx_main_v11 (ix3 b s j))) k
      = ix4 (⟨(row b s).val / 2048, by show (b.val * 2048 + s.val) / 2048 < 2; omega⟩ : Fin 2) (⟨j.val / 64, by omega⟩ : Fin 16) k
          (⟨j.val % 64, by omega⟩ : Fin 64) := by
    refine ix4_ext _ _ _ _ _ ?_ ?_ ?_ ?_
    · show ((b.val * 2048 + s.val) * 1024 + j.val) / 2097152 = (b.val * 2048 + s.val) / 2048; omega
    · show ((b.val * 2048 + s.val) * 1024 + j.val) / 64 % 16 = j.val / 64; omega
    · rfl
    · show ((b.val * 2048 + s.val) * 1024 + j.val) % 64 = j.val % 64; omega
  rw [e3, ref_proj]
  refine congrArg₂ (· * ·) (congrArg₂ (· * ·) (Finset.sum_congr rfl fun e _ => ?_) rfl) ?_
  · have he := e.isLt
    have e1 : lidx_main_v6 (lidx_main_v9 (idx_main_v10 (idx_main_v11 (ix3 b s j))) k) e
        = ix4 (⟨(row b s).val / 2048, by show (b.val * 2048 + s.val) / 2048 < 2; omega⟩ : Fin 2) (⟨j.val / 64, by omega⟩ : Fin 16)
            (⟨(row b s).val % 2048, by omega⟩ : Fin 2048) e := by
      refine ix4_ext _ _ _ _ _ ?_ ?_ ?_ ?_
      · show ((b.val * 2048 + s.val) * 1024 + j.val) / 2097152 = (b.val * 2048 + s.val) / 2048; omega
      · show ((b.val * 2048 + s.val) * 1024 + j.val) / 64 % 16 = j.val / 64; omega
      · show ((b.val * 2048 + s.val) * 1024 + j.val) / 1024 % 2048 = (b.val * 2048 + s.val) % 2048; omega
      · rfl
    have e2 : ridx_main_v6 (lidx_main_v9 (idx_main_v10 (idx_main_v11 (ix3 b s j))) k) e
        = ix4 (⟨(row b s).val / 2048, by show (b.val * 2048 + s.val) / 2048 < 2; omega⟩ : Fin 2) (⟨j.val / 64, by omega⟩ : Fin 16) k e := by
      refine ix4_ext _ _ _ _ _ ?_ ?_ ?_ ?_
      · show ((b.val * 2048 + s.val) * 1024 + j.val) / 2097152 = (b.val * 2048 + s.val) / 2048; omega
      · show ((b.val * 2048 + s.val) * 1024 + j.val) / 64 % 16 = j.val / 64; omega
      · rfl
      · rfl
    rw [e1, e2, ref_proj, ref_proj]
  · rfl

/-- The reference's result is `outRef` of the five arguments. -/
theorem ref_eq : val_main_v15 (F := Ideal) x0 x1 x2 x3 x4 = outRef x0 x1 x2 x3 x4 := by
  funext i
  obtain ⟨b, s, cc, rfl⟩ : ∃ (b : Fin 2) (s : Fin 2048) (cc : Fin 1000), i = ix3 b s cc := ⟨i 0, i 1, i 2, eq_ix3 i⟩
  rw [val_main_v15_apply, val_main_v12_apply, val_main_v14_apply, val_main_v13_apply]
  unfold outRef dense mat vec
  refine congrArg₂ (· + ·) (Finset.sum_congr rfl fun k _ => congrArg₂ (· * ·) ?_ (congrArg x3 ?_)) (congrArg x4 ?_)
  · have e : lidx_main_v12 (ix3 b s cc) k = ix3 b s k := ix3_ext _ _ _ _ rfl rfl rfl
    rw [e, ref_vals]
  · exact ix2_ext _ _ _ rfl rfl
  · exact ix1_ext _ _ rfl

end Cert.ReferenceIdeal.RefValue

end
-- ==== Proof.Finite.lean ====
/-
  From the precondition to real entries.

  The precondition is a conjunction of five statements "every entry of the array has absolute value below +∞", each
  a reduction by AND of an entry-wise comparison. On the extended reals |x| = max(x, −x) is +∞ at both infinities, so
  |x| < +∞ says exactly that x is a real number. Only x, W_in and b_in are needed (the layer's one law that needs real
  entries is the exchange of sums inside the attention).
-/
import proofs.«122233_j8297876815995_2_alg».proof.Proof.Gen.Pre_finite_inputs
import Idealize.ShloMosaic.Lib.ReduceAll
import Idealize.ShloMosaic.Lib.Affine
import Idealize.ShloMosaic.Lib.ValueIdx
import proofs.«122233_j8297876815995_2_alg».proof.Proof.LibRealEntries

noncomputable section

namespace Cert.Finite

open Idealize.ShloMosaic Idealize.SL.Sem Cert.LibRealEntries

/-- An extended real whose absolute value is below the f32 word of +∞ is a real number. -/
theorem real_of_abs_lt_inf (x : EReal)
    (h : Ideal.cmp .olt (max x (-x)) (Ideal.ofBits .f32 0x7F800000#32) = 1#1) : IsReal x := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

instance : Subsingleton Cert.Pre_finite_inputs.S_.Idx := ⟨fun a b => funext fun d => d.elim0⟩

/-- Under the precondition x, W_in and b_in hold real numbers. -/
theorem real_args (a0 : FVec Ideal Cert.Pre_finite_inputs.S2x2048x1024 .f32) (a1 : FVec Ideal Cert.Pre_finite_inputs.S1024x1024 .f32)
    (a2 : FVec Ideal Cert.Pre_finite_inputs.S1024 .f32) (a3 : FVec Ideal Cert.Pre_finite_inputs.S1000x1024 .f32)
    (a4 : FVec Ideal Cert.Pre_finite_inputs.S1000 .f32)
    (h : Cert.Pre_finite_inputs.fn (F := Ideal) a0 a1 a2 a3 a4 = fun _ => 1#1) :
    (∀ i, IsReal (a0 i)) ∧ (∀ i, IsReal (a1 i)) ∧ (∀ i, IsReal (a2 i)) := by
  have h0 := congrFun h ValueIdx.ix0
  unfold Cert.Pre_finite_inputs.fn Cert.Pre_finite_inputs.fn_part1 at h0
  simp only [andi, IntOp.andi_eq_one] at h0
  obtain ⟨⟨⟨⟨h3, h7⟩, h12⟩, -⟩, -⟩ := h0
  refine ⟨fun i => ?_, fun i => ?_, fun i => ?_⟩
  · exact real_of_abs_lt_inf (a0 i) (Host.reduce_andi_all _ _ _ _ _ h3 i)
  · exact real_of_abs_lt_inf (a1 i) (Host.reduce_andi_all _ _ _ _ _ h7 i)
  · exact real_of_abs_lt_inf (a2 i) (Host.reduce_andi_all _ _ _ _ _ h12 i)

end Cert.Finite

end
-- ==== Proof.lean ====
/-
  A multi-head attention layer without softmax, [2, 2048, 1024] → [2, 2048, 1000], computed two ways.

  Both programs project the input, P = x·W_inᵀ + b_in, split P's 1024 columns into 16 heads of 64 features, form per
  batch entry and head the attention value, and project again, ·W_outᵀ + b_out. They differ in the middle. The
  reference forms the 2048 × 2048 scores (P_h·P_hᵀ)·(1/32) and multiplies them by P_h. The kernel uses that the
  product is associative: it forms the 64 × 64 Gram matrix P_hᵀ·P_h first — two heads at a time, as one 128 × 128
  matrix whose two off-diagonal 64 × 64 blocks, the cross-head terms, are replaced by zero —, scales it by 1/32 and
  multiplies P_h by it. On the extended reals the two agree when P is real:

      Σ_k ((Σ_e P(s,e)·P(k,e))·c)·P(k,d)  =  Σ_e P(s,e)·((Σ_k P(k,e)·P(k,d))·c),

  an exchange of two finite sums and a common factor moved across them, which is where the precondition (every
  input finite) is used, for x, W_in and b_in only. Everything else — the projections as plain sums, the tiling
  of the rows into blocks of 512 and of the heads into pairs, the re-layings on the host, the masked columns dropping
  out — holds entry by entry with no finiteness.

  The kernel program's run names its result array; the blocks of the three calls are joined into whole arrays and
  read through the host's re-layings as the function `out` of the arguments; the reference's run is read one
  operation at a time as `outRef`; and `outRef = out` on real inputs. The kernel is its own idealization (no
  operation is rewritten), so that conjunct holds trivially.
-/
import proofs.«122233_j8297876815995_2_alg».proof.Defs
import proofs.«122233_j8297876815995_2_alg».proof.Proof.Gen.Kernel
import proofs.«122233_j8297876815995_2_alg».proof.Proof.Gen.Kernel.Skeleton
import proofs.«122233_j8297876815995_2_alg».proof.Proof.Gen.Kernel.Launch
import proofs.«122233_j8297876815995_2_alg».proof.Proof.Gen.Kernel.Points
import proofs.«122233_j8297876815995_2_alg».proof.Proof.Gen.Kernel.Frame
import proofs.«122233_j8297876815995_2_alg».proof.Proof.Gen.KernelIdeal
import proofs.«122233_j8297876815995_2_alg».proof.Proof.Gen.KernelIdeal.Skeleton
import proofs.«122233_j8297876815995_2_alg».proof.Proof.Gen.KernelIdeal.Launch
import proofs.«122233_j8297876815995_2_alg».proof.Proof.Gen.KernelIdeal.Points
import proofs.«122233_j8297876815995_2_alg».proof.Proof.Gen.KernelIdeal.Frame
import proofs.«122233_j8297876815995_2_alg».proof.Proof.Gen.ReferenceIdeal
import proofs.«122233_j8297876815995_2_alg».proof.Proof.Gen.ReferenceIdeal.Run
import proofs.«122233_j8297876815995_2_alg».proof.Proof.Gen.ReferenceIdeal.Read
import proofs.«122233_j8297876815995_2_alg».proof.Proof.Gen.Pre_finite_inputs
import proofs.«122233_j8297876815995_2_alg».proof.Proof.RunResult
import proofs.«122233_j8297876815995_2_alg».proof.Proof.Stages
import proofs.«122233_j8297876815995_2_alg».proof.Proof.RefSide
import proofs.«122233_j8297876815995_2_alg».proof.Proof.Finite
import proofs.«122233_j8297876815995_2_alg».proof.Proof.Layer
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at `out` of the kernel program's arguments: the kernel by its blocks and
    re-layings, the reference by its operations read at an index and the exchange of sums on real entries. -/
theorem algebraic : Cert.algebraic_KernelIdeal_ReferenceIdeal := by
  intro m ρ m' ρ' hpre hagree
  refine ⟨fun c => Cert.LinAttn.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run (Cert.KernelIdeal.defs (F := Ideal)) _ _).mono
      (fun r h c => ⟨(h c).1.trans (Cert.KernelIdeal.Stages.result_eq m ρ c), (h c).2⟩)
      (Cert.KernelIdeal.RunResult.run (F := Ideal) m ρ)
  refine (θ_run (Cert.ReferenceIdeal.defs (F := Ideal)) _ _).mono (fun r h c => ⟨(h c).1.trans ?_, (h c).2⟩)
    (Cert.ReferenceIdeal.Value.run (F := Ideal) m' ρ')
  rw [Cert.ReferenceIdeal.Read.val_main_v15_eq, Cert.ReferenceIdeal.RefValue.ref_eq,
    (hagree c).1, (hagree c).2.1, (hagree c).2.2.1, (hagree c).2.2.2.1, (hagree c).2.2.2.2]
  obtain ⟨r0, r1, r2⟩ := Cert.Finite.real_args _ _ _ _ _ (hpre c)
  exact Cert.LinAttn.outRef_eq_out _ _ _ _ _ r0 r1 r2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
